-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Bits.Entry.lean ====
/-
  The region as the program enters it. Before the one kernel region the host reshapes the bias
  vector into a 1 x 128 row; every other array the kernel sees is an argument as launched. This
  module names the buffers' contents at that moment, shows that the program is that reshape
  followed by the region, names each window's block at a grid point, decides where the body's
  one branch (the first grid point computes the projected features) is taken, and spells the
  staging buffers the body is called on.
-/
import proofs.«109797_g3770981286190_cont_8to1_b_7_8_alg».proof.Proof.Gen.Kernel.Launch
import proofs.«109797_g3770981286190_cont_8to1_b_7_8_alg».proof.Proof.Gen.Kernel.Skeleton
import proofs.«109797_g3770981286190_cont_8to1_b_7_8_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffers' contents on core `c` after the host's reshape of the bias vector. -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the reshape, then the region: holding the unscoped buffers at the launch contents it
    reaches the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: the four arguments are as launched. -/
theorem V_main_arg0 (c : Dev nD) : V m c main_arg0 = m ((c : Thread nD τ).loc main_arg0) := by
  dsimp only [V, V0, hostOps0]; after_results <;> rfl
theorem V_main_arg1 (c : Dev nD) : V m c main_arg1 = m ((c : Thread nD τ).loc main_arg1) := by
  dsimp only [V, V0, hostOps0]; after_results <;> rfl
theorem V_main_arg2 (c : Dev nD) : V m c main_arg2 = m ((c : Thread nD τ).loc main_arg2) := by
  dsimp only [V, V0, hostOps0]; after_results <;> rfl
theorem V_main_arg3 (c : Dev nD) : V m c main_arg3 = m ((c : Thread nD τ).loc main_arg3) := by
  dsimp only [V, V0, hostOps0]; after_results <;> rfl
/-- The bias row is the bias vector recast to 1 x 128. -/
theorem V_main_v0 (c : Dev nD) : (V m c main_v0 : S1x128.Idx → F .f32)
    = shapeCast S1x128 (m ((c : Thread nD τ).loc main_arg3) : S128.Idx → F .f32) Facts₀.shapeCasts_S128_S1x128 := by
  dsimp only [V, V0, hostOps0]; after_results <;> rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The body's one branch tests whether the grid coordinate is zero. -/
abbrev cond0 (i : grid0.Coords) : Prop := (Scalar.cmpi .ne (Scalar.extui (Scalar.cmpi .eq (BitVec.ofNat 32 (i 0).val) 0#32)) 0#32) = 1#1
/-- It holds at the first of the 25 points only. -/
theorem hcond0 : ∀ t : Fin cfg0.N, cond0 (grid0.coords t) ↔ t.val = 0 :=
  (by decide +kernel : ∀ t : Fin grid0.N, cond0 (grid0.coords t) ↔ t.val = 0)

/-! ## The staging buffers the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch that carries the projected features from the first point to the others. -/
abbrev scM : Memref sig .tc .vmem S10000x128 .f32 := Memref.whole cc0_scratch0

/-- What the region hands the body besides the windows: the scratch at some contents and the generator
    register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.Bits.BodyRuns.lean ====
/-
  The kernel body on any whole staging buffers, in its two cases. At the first grid point it multiplies
  the feature matrix by the weights and keeps the product in the scratch; at every point it multiplies
  two blocks of 200 adjacency rows by the kept product, adds the bias row, takes the maximum with zero,
  and stores the two results as the upper and lower halves of a 400-row output block. Each case is run
  once, symbolically, and what it leaves is named through the body's pure payloads.
-/
import proofs.«109797_g3770981286190_cont_8to1_b_7_8_alg».proof.Proof.Bits.Entry
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off00 : (![0, 0] : Fin 2 → Nat) = fun _ => 0 := by funext a; fin_cases a <;> rfl

/-- The 400 x 128 block the body leaves in the output's staging buffer: rows 0–199 computed from the first
    block of adjacency rows, rows 200–399 from the second, both against the same projected features `xs`
    and bias row `x4`. -/
def outBlock (x2 x3 : Vec F S200x10000 .f32) (x4 : Vec F S1x128 .f32) (xs : Vec F S10000x128 .f32) : Vec F S400x128 .f32 :=
  View.canon [(⟨Rect.unit (s := S400x128) ![200, 0] S200x128.size Facts₀.inb_S400x128_S200x128_200_0, k0_pay3 x3 xs x4⟩ : View.Piece (Elt F) S400x128 .f32),
    ⟨Rect.unit (s := S400x128) ![0, 0] S200x128.size Facts₀.inb_S400x128_S200x128_0_0, k0_pay2 x2 xs x4⟩]

set_option maxHeartbeats 1000000 in
/-- A point after the first: the branch is skipped, the scratch still holds `xs`, and the output buffer ends
    at `outBlock`; every input buffer and the scratch are handed back as found. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S400x128 .f32) (harg6 : arg6.IsWhole)
    (arg7 : Memref sig .tc .vmem S10000x128 .f32) (harg7 : arg7.IsWhole) (hc : ¬cond0 i)
    (x0 : Vec F S10000x128 .f32) (x1 : Vec F S128x128 .f32) (x2 x3 : Vec F S200x10000 .f32) (x4 : Vec F S1x128 .f32) (xs : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x2 x3 x4 xs) ∗ owns (c : Thread nD τ) arg7 fullShare xs) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_eq_canon _ _ _ ?_).trans ?_
    · exact View.cover_of_tiledL _ S200x128.size (by sl_kernel_rfl)
    simp only [View.readAt_eq_ld, harg3.read_unread, harg4.read_unread, harg5.read_unread, harg7.read_unread,
      View.ld_unit_zero (S := S200x10000) off00, View.ld_unit_zero (S := S10000x128) off00, View.ld_unit_zero (S := S1x128) off00]
    rfl
  iexists _; isplitr; · ipureintro; exact harg7.read_unread _
  iexact HS

set_option maxHeartbeats 1000000 in
/-- The first point: the branch is taken, the scratch (found at anything) ends at the product of the feature
    block `x0` and the weight block `x1`, and the output buffer ends at `outBlock` computed against that product. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S400x128 .f32) (harg6 : arg6.IsWhole)
    (arg7 : Memref sig .tc .vmem S10000x128 .f32) (harg7 : arg7.IsWhole) (hc : cond0 i)
    (x0 : Vec F S10000x128 .f32) (x1 : Vec F S128x128 .f32) (x2 x3 : Vec F S200x10000 .f32) (x4 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x2 x3 x4 (k0_pay1 x0 x1)) ∗ owns (c : Thread nD τ) arg7 fullShare (k0_pay1 x0 x1)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    refine (View.read_writes_eq_canon _ _ _ ?_).trans ?_
    · exact View.cover_of_tiledL _ S200x128.size (by sl_kernel_rfl)
    simp only [View.readCov_unit_zero (S := S10000x128) arg7.view off00, View.readAt_eq_ld, harg1.read_unread, harg2.read_unread, harg3.read_unread, harg4.read_unread, harg5.read_unread,
      View.ld_unit_zero (S := S200x10000) off00, View.ld_unit_zero (S := S10000x128) off00, View.ld_unit_zero (S := S1x128) off00,
      View.ld_unit_zero (S := S128x128) off00]
    rfl
  iexists _; isplitr
  swap; · iexact HS
  ipureintro
  sl_unfold_words
  refine (View.read_writes_eq_canon _ _ _ ?_).trans ?_
  · exact View.cover_of_tiledL _ S10000x128.size (by sl_kernel_rfl)
  rw [View.canon_unit_zero off00]
  simp only [View.readAt_eq_ld, harg1.read_unread, harg2.read_unread,
    View.ld_unit_zero (S := S10000x128) off00, View.ld_unit_zero (S := S128x128) off00]

end Cert.Kernel.Hand

end
-- ==== Proof.Bits.PointData.lean ====
/-
  What every staging buffer holds point by point. The five input windows hold their blocks of the
  arrays as the region found them (the feature matrix, the weights and the bias row are whole and are
  fetched once; the two adjacency windows advance by 400 rows a point, one 200 rows behind the other).
  The scratch holds, from the first point on, the product of the feature matrix and the weights. The
  output window's buffer ends each point at the 400-row block computed from that point's two adjacency
  blocks. The body, run in the case its grid point selects, takes the one state to the next.
-/
import proofs.«109797_g3770981286190_cont_8to1_b_7_8_alg».proof.Proof.Bits.BodyRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩

/-- The projected features: the feature matrix times the weights, as the body computes it at the first point. -/
def xw (c : Dev nD) : Vec F S10000x128 .f32 := k0_pay1 (iblk m c 0 t0) (iblk m c 1 t0)

/-- The invariant the body keeps: before the first point the scratch holds anything; afterwards the projected features. -/
def PhiS (c : Dev nD) : ℕ → sProp 𝕄
  | 0 => iprop(∃ d, owns (c : Thread nD τ) scM fullShare d)
  | _ + 1 => owns (c : Thread nD τ) scM fullShare (xw m c)

theorem PhiS_zero (c : Dev nD) : PhiS m c 0 = iprop(∃ d, owns (c : Thread nD τ) scM fullShare d) := rfl
theorem PhiS_succ (c : Dev nD) (n : ℕ) : PhiS m c (n + 1) = owns (c : Thread nD τ) scM fullShare (xw m c) := rfl
theorem PhiS_pos (c : Dev nD) (n : ℕ) (hn : n ≠ 0) : PhiS m c n = owns (c : Thread nD τ) scM fullShare (xw m c) := by
  cases n with
  | zero => exact absurd rfl hn
  | succ n => rfl

/-- The proof data of the one pipeline on core `c`. The adjacency matrix is read through two windows, each
    holding half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 2 t) (iblk m c 3 t) (iblk m c 4 t) (xw m c)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 2 t) (iblk m c 3 t) (iblk m c 4 t) (xw m c) := by dsimp only [dats]

/-- An input window's buffer holds its block at every point, fetched there or not: the body leaves it as found,
    and a window not fetched has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4000000 in
/-- The body at any point: the inputs' buffers hold their blocks; at the first point the scratch is found at
    anything and left at the projected features, at the others it is found and left at them; the output
    buffer, found at anything, is left at the point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl]
  rw [show (dats m 0 c).Φ t.succ = PhiS m c (t.val + 1) from rfl, PhiS_succ,
    show (dats m 0 c).Φ t.castSucc = PhiS m c t.val from rfl]
  by_cases h0 : t.val = 0
  · obtain rfl : t = t0 := Fin.ext h0
    rw [show PhiS m c (t0 : Fin cfg0.N).val = iprop(∃ d, owns (c : Thread nD τ) scM fullShare d) from rfl]
    iintro ⟨HS, Ho, ⟨%d0, H0⟩, ⟨%d1, H1⟩, ⟨%d2, H2⟩, ⟨%d3, H3⟩, ⟨%d4, H4⟩, H5⟩
    iapply (run_first c (grid0.coords t0) _ _ _ _ _ _ _ _ _ _ _ _ scM (Memref.isWhole_whole _) ((hcond0 t0).mpr rfl)
      (iblk m c 0 t0) (iblk m c 1 t0) (iblk m c 2 t0) (iblk m c 3 t0) (iblk m c 4 t0) Set.univ _)
    isplitl [H0]; · iexact H0
    isplitl [H1]; · iexact H1
    isplitl [H2]; · iexact H2
    isplitl [H3]; · iexact H3
    isplitl [H4]; · iexact H4
    isplitl [H5]
    · icases H5 with ⟨%d5, H5⟩; iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ h0]
    iintro ⟨HS, Ho, ⟨%d0, H0⟩, ⟨%d1, H1⟩, ⟨%d2, H2⟩, ⟨%d3, H3⟩, ⟨%d4, H4⟩, H5⟩
    iapply (run_later c (grid0.coords t) _ _ _ _ _ _ _ _ _ _ _ _ scM (Memref.isWhole_whole _) (fun h => h0 ((hcond0 t).mp h))
      (iblk m c 0 t) (iblk m c 1 t) (iblk m c 2 t) (iblk m c 3 t) (iblk m c 4 t) (xw m c) Set.univ _)
    isplitl [H0]; · iexact H0
    isplitl [H1]; · iexact H1
    isplitl [H2]; · iexact H2
    isplitl [H3]; · iexact H3
    isplitl [H4]; · iexact H4
    isplitl [H5]
    · icases H5 with ⟨%d5, H5⟩; iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Bits.Run.lean ====
/-
  The run of the whole program. The adjacency matrix reaches the kernel through two windows, so its
  buffer is dealt between them, half of its share each; nothing writes it, and at the end both halves say
  it holds what it held. From the point-by-point account of the body, every weakly fair execution ends
  with each windowed array at what the write-backs leave and the bias vector untouched; the four
  arguments are read back unchanged.
-/
import proofs.«109797_g3770981286190_cont_8to1_b_7_8_alg».proof.Proof.Bits.PointData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the six windows: five, the adjacency matrix serving two of them. -/
theorem arrRefs_eq : Finset.univ.image (Pipeline.arrRef spec0) = [main_arg1, main_arg2, main_arg0, main_v0, main_v1].toFinset := by decide

/-- Before any write-back an array holds its entry contents. -/
theorem arr_at0 (c : Dev nD) (w : Fin 6) : (dats m 0 c).arrAt w 0 = V m c (Pipeline.arrRef spec0 w) := A_eq m c w

/-- The shares: the two adjacency windows hold a half each, every other window its array whole. -/
theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl

/-- The buffers behind the arrays, each whole at the entry contents, are the windows' arrays at their shares:
    the adjacency matrix is split into its two halves, one per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : ∀ Φ : Ref sig .tc → sProp 𝕄, bigSep (Finset.univ.image (Pipeline.arrRef spec0)) Φ
      = iprop(Φ (Pipeline.arrRef spec0 0) ∗ Φ (Pipeline.arrRef spec0 1) ∗ Φ (Pipeline.arrRef spec0 2) ∗ Φ (Pipeline.arrRef spec0 4) ∗ Φ (Pipeline.arrRef spec0 5)) :=
    fun Φ => (bigSep_eq_bigSepL_of_eq _ arrRefs_eq (by decide) Φ).trans rfl
  unfold Pipeline.arrBufs Dat.arrays
  rw [bigSep_W0, e]
  simp only [arr_at0, share_0, share_1, share_2, share_3, share_4, share_5, View.set_whole]
  iintro ⟨H1, H2, H0, Hv0, Hv1⟩
  ihave H0 := (pointsTo_share (PosShare.mem_left_op_right fullShare)).1 $$ H0
  icases H0 with ⟨H0l, H0r⟩
  isplitl [H1]; · iexact H1
  isplitl [H2]; · iexact H2
  isplitl [H0l]; · iexact H0l
  isplitl [H0r]; · iexact H0r
  isplitl [Hv0]; · iexact Hv0
  iexact Hv1

/-- The scratch at anything is the invariant before the first point. -/
theorem hin (c : Dev nD) :
    iprop((iprop(emp) : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero, scopedRest0_eq]
  simp only [scM, owns_whole]
  iintro ⟨-, H⟩; iexact H

/-- After the last point the scratch is given back, its contents forgotten. -/
theorem hout (c : Dev nD) :
    (dats m 0 c).Φ (Fin.last cfg0.N) ⊢ iprop((iprop(emp) : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 25 := N_0; omega), scopedRest0_eq]
  simp only [scM, owns_whole]
  iintro H; isplitr; · iempintro
  iexists _; iexact H

/-- What the run ends with: each windowed array at what the proof data compute, every other unscoped buffer
    (the bias vector) at its entry contents. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = V m c b

set_option backward.isDefEq.respectTransparency.types false in
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (hin m) (hout m)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h => h)

/-- The four arguments end as launched: the three the kernel windows are inputs, never written; the bias vector
    bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c)⟩) (run_main m ρ)

end Cert.Kernel.Hand

end
-- ==== Proof.Ideal.Entry.lean ====
/-
  The region as the program enters it. Before the one kernel region the host reshapes the bias
  vector into a 1 x 128 row; every other array the kernel sees is an argument as launched. This
  module names the buffers' contents at that moment, shows that the program is that reshape
  followed by the region, names each window's block at a grid point, decides where the body's
  one branch (the first grid point computes the projected features) is taken, and spells the
  staging buffers the body is called on.
-/
import proofs.«109797_g3770981286190_cont_8to1_b_7_8_alg».proof.Proof.Gen.KernelIdeal.Launch
import proofs.«109797_g3770981286190_cont_8to1_b_7_8_alg».proof.Proof.Gen.KernelIdeal.Skeleton
import proofs.«109797_g3770981286190_cont_8to1_b_7_8_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffers' contents on core `c` after the host's reshape of the bias vector. -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the reshape, then the region: holding the unscoped buffers at the launch contents it
    reaches the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: the four arguments are as launched. -/
theorem V_main_arg0 (c : Dev nD) : V m c main_arg0 = m ((c : Thread nD τ).loc main_arg0) := by
  dsimp only [V, V0, hostOps0]; after_results <;> rfl
theorem V_main_arg1 (c : Dev nD) : V m c main_arg1 = m ((c : Thread nD τ).loc main_arg1) := by
  dsimp only [V, V0, hostOps0]; after_results <;> rfl
theorem V_main_arg2 (c : Dev nD) : V m c main_arg2 = m ((c : Thread nD τ).loc main_arg2) := by
  dsimp only [V, V0, hostOps0]; after_results <;> rfl
theorem V_main_arg3 (c : Dev nD) : V m c main_arg3 = m ((c : Thread nD τ).loc main_arg3) := by
  dsimp only [V, V0, hostOps0]; after_results <;> rfl
/-- The bias row is the bias vector recast to 1 x 128. -/
theorem V_main_v0 (c : Dev nD) : (V m c main_v0 : S1x128.Idx → F .f32)
    = shapeCast S1x128 (m ((c : Thread nD τ).loc main_arg3) : S128.Idx → F .f32) Facts₀.shapeCasts_S128_S1x128 := by
  dsimp only [V, V0, hostOps0]; after_results <;> rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The body's one branch tests whether the grid coordinate is zero. -/
abbrev cond0 (i : grid0.Coords) : Prop := (Scalar.cmpi .ne (Scalar.extui (Scalar.cmpi .eq (BitVec.ofNat 32 (i 0).val) 0#32)) 0#32) = 1#1
/-- It holds at the first of the 25 points only. -/
theorem hcond0 : ∀ t : Fin cfg0.N, cond0 (grid0.coords t) ↔ t.val = 0 :=
  (by decide +kernel : ∀ t : Fin grid0.N, cond0 (grid0.coords t) ↔ t.val = 0)

/-! ## The staging buffers the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch that carries the projected features from the first point to the others. -/
abbrev scM : Memref sig .tc .vmem S10000x128 .f32 := Memref.whole cc0_scratch0

/-- What the region hands the body besides the windows: the scratch at some contents and the generator
    register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.Ideal.BodyRuns.lean ====
/-
  The kernel body on any whole staging buffers, in its two cases. At the first grid point it multiplies
  the feature matrix by the weights and keeps the product in the scratch; at every point it multiplies
  two blocks of 200 adjacency rows by the kept product, adds the bias row, takes the maximum with zero,
  and stores the two results as the upper and lower halves of a 400-row output block. Each case is run
  once, symbolically, and what it leaves is named through the body's pure payloads.
-/
import proofs.«109797_g3770981286190_cont_8to1_b_7_8_alg».proof.Proof.Ideal.Entry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off00 : (![0, 0] : Fin 2 → Nat) = fun _ => 0 := by funext a; fin_cases a <;> rfl

/-- The 400 x 128 block the body leaves in the output's staging buffer: rows 0–199 computed from the first
    block of adjacency rows, rows 200–399 from the second, both against the same projected features `xs`
    and bias row `x4`. -/
def outBlock (x2 x3 : Vec F S200x10000 .f32) (x4 : Vec F S1x128 .f32) (xs : Vec F S10000x128 .f32) : Vec F S400x128 .f32 :=
  View.canon [(⟨Rect.unit (s := S400x128) ![200, 0] S200x128.size Facts₀.inb_S400x128_S200x128_200_0, k0_pay3 x3 xs x4⟩ : View.Piece (Elt F) S400x128 .f32),
    ⟨Rect.unit (s := S400x128) ![0, 0] S200x128.size Facts₀.inb_S400x128_S200x128_0_0, k0_pay2 x2 xs x4⟩]

set_option maxHeartbeats 1000000 in
/-- A point after the first: the branch is skipped, the scratch still holds `xs`, and the output buffer ends
    at `outBlock`; every input buffer and the scratch are handed back as found. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S400x128 .f32) (harg6 : arg6.IsWhole)
    (arg7 : Memref sig .tc .vmem S10000x128 .f32) (harg7 : arg7.IsWhole) (hc : ¬cond0 i)
    (x0 : Vec F S10000x128 .f32) (x1 : Vec F S128x128 .f32) (x2 x3 : Vec F S200x10000 .f32) (x4 : Vec F S1x128 .f32) (xs : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x2 x3 x4 xs) ∗ owns (c : Thread nD τ) arg7 fullShare xs) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_eq_canon _ _ _ ?_).trans ?_
    · exact View.cover_of_tiledL _ S200x128.size (by sl_kernel_rfl)
    simp only [View.readAt_eq_ld, harg3.read_unread, harg4.read_unread, harg5.read_unread, harg7.read_unread,
      View.ld_unit_zero (S := S200x10000) off00, View.ld_unit_zero (S := S10000x128) off00, View.ld_unit_zero (S := S1x128) off00]
    rfl
  iexists _; isplitr; · ipureintro; exact harg7.read_unread _
  iexact HS

set_option maxHeartbeats 1000000 in
/-- The first point: the branch is taken, the scratch (found at anything) ends at the product of the feature
    block `x0` and the weight block `x1`, and the output buffer ends at `outBlock` computed against that product. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S400x128 .f32) (harg6 : arg6.IsWhole)
    (arg7 : Memref sig .tc .vmem S10000x128 .f32) (harg7 : arg7.IsWhole) (hc : cond0 i)
    (x0 : Vec F S10000x128 .f32) (x1 : Vec F S128x128 .f32) (x2 x3 : Vec F S200x10000 .f32) (x4 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x2 x3 x4 (k0_pay1 x0 x1)) ∗ owns (c : Thread nD τ) arg7 fullShare (k0_pay1 x0 x1)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    refine (View.read_writes_eq_canon _ _ _ ?_).trans ?_
    · exact View.cover_of_tiledL _ S200x128.size (by sl_kernel_rfl)
    simp only [View.readCov_unit_zero (S := S10000x128) arg7.view off00, View.readAt_eq_ld, harg1.read_unread, harg2.read_unread, harg3.read_unread, harg4.read_unread, harg5.read_unread,
      View.ld_unit_zero (S := S200x10000) off00, View.ld_unit_zero (S := S10000x128) off00, View.ld_unit_zero (S := S1x128) off00,
      View.ld_unit_zero (S := S128x128) off00]
    rfl
  iexists _; isplitr
  swap; · iexact HS
  ipureintro
  sl_unfold_words
  refine (View.read_writes_eq_canon _ _ _ ?_).trans ?_
  · exact View.cover_of_tiledL _ S10000x128.size (by sl_kernel_rfl)
  rw [View.canon_unit_zero off00]
  simp only [View.readAt_eq_ld, harg1.read_unread, harg2.read_unread,
    View.ld_unit_zero (S := S10000x128) off00, View.ld_unit_zero (S := S128x128) off00]

end Cert.KernelIdeal.Hand

end
-- ==== Proof.Ideal.PointData.lean ====
/-
  What every staging buffer holds point by point. The five input windows hold their blocks of the
  arrays as the region found them (the feature matrix, the weights and the bias row are whole and are
  fetched once; the two adjacency windows advance by 400 rows a point, one 200 rows behind the other).
  The scratch holds, from the first point on, the product of the feature matrix and the weights. The
  output window's buffer ends each point at the 400-row block computed from that point's two adjacency
  blocks. The body, run in the case its grid point selects, takes the one state to the next.
-/
import proofs.«109797_g3770981286190_cont_8to1_b_7_8_alg».proof.Proof.Ideal.BodyRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩

/-- The projected features: the feature matrix times the weights, as the body computes it at the first point. -/
def xw (c : Dev nD) : Vec F S10000x128 .f32 := k0_pay1 (iblk m c 0 t0) (iblk m c 1 t0)

/-- The invariant the body keeps: before the first point the scratch holds anything; afterwards the projected features. -/
def PhiS (c : Dev nD) : ℕ → sProp 𝕄
  | 0 => iprop(∃ d, owns (c : Thread nD τ) scM fullShare d)
  | _ + 1 => owns (c : Thread nD τ) scM fullShare (xw m c)

theorem PhiS_zero (c : Dev nD) : PhiS m c 0 = iprop(∃ d, owns (c : Thread nD τ) scM fullShare d) := rfl
theorem PhiS_succ (c : Dev nD) (n : ℕ) : PhiS m c (n + 1) = owns (c : Thread nD τ) scM fullShare (xw m c) := rfl
theorem PhiS_pos (c : Dev nD) (n : ℕ) (hn : n ≠ 0) : PhiS m c n = owns (c : Thread nD τ) scM fullShare (xw m c) := by
  cases n with
  | zero => exact absurd rfl hn
  | succ n => rfl

/-- The proof data of the one pipeline on core `c`. The adjacency matrix is read through two windows, each
    holding half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 2 t) (iblk m c 3 t) (iblk m c 4 t) (xw m c)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 2 t) (iblk m c 3 t) (iblk m c 4 t) (xw m c) := by dsimp only [dats]

/-- An input window's buffer holds its block at every point, fetched there or not: the body leaves it as found,
    and a window not fetched has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4000000 in
/-- The body at any point: the inputs' buffers hold their blocks; at the first point the scratch is found at
    anything and left at the projected features, at the others it is found and left at them; the output
    buffer, found at anything, is left at the point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl]
  rw [show (dats m 0 c).Φ t.succ = PhiS m c (t.val + 1) from rfl, PhiS_succ,
    show (dats m 0 c).Φ t.castSucc = PhiS m c t.val from rfl]
  by_cases h0 : t.val = 0
  · obtain rfl : t = t0 := Fin.ext h0
    rw [show PhiS m c (t0 : Fin cfg0.N).val = iprop(∃ d, owns (c : Thread nD τ) scM fullShare d) from rfl]
    iintro ⟨HS, Ho, ⟨%d0, H0⟩, ⟨%d1, H1⟩, ⟨%d2, H2⟩, ⟨%d3, H3⟩, ⟨%d4, H4⟩, H5⟩
    iapply (run_first c (grid0.coords t0) _ _ _ _ _ _ _ _ _ _ _ _ scM (Memref.isWhole_whole _) ((hcond0 t0).mpr rfl)
      (iblk m c 0 t0) (iblk m c 1 t0) (iblk m c 2 t0) (iblk m c 3 t0) (iblk m c 4 t0) Set.univ _)
    isplitl [H0]; · iexact H0
    isplitl [H1]; · iexact H1
    isplitl [H2]; · iexact H2
    isplitl [H3]; · iexact H3
    isplitl [H4]; · iexact H4
    isplitl [H5]
    · icases H5 with ⟨%d5, H5⟩; iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ h0]
    iintro ⟨HS, Ho, ⟨%d0, H0⟩, ⟨%d1, H1⟩, ⟨%d2, H2⟩, ⟨%d3, H3⟩, ⟨%d4, H4⟩, H5⟩
    iapply (run_later c (grid0.coords t) _ _ _ _ _ _ _ _ _ _ _ _ scM (Memref.isWhole_whole _) (fun h => h0 ((hcond0 t).mp h))
      (iblk m c 0 t) (iblk m c 1 t) (iblk m c 2 t) (iblk m c 3 t) (iblk m c 4 t) (xw m c) Set.univ _)
    isplitl [H0]; · iexact H0
    isplitl [H1]; · iexact H1
    isplitl [H2]; · iexact H2
    isplitl [H3]; · iexact H3
    isplitl [H4]; · iexact H4
    isplitl [H5]
    · icases H5 with ⟨%d5, H5⟩; iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Ideal.Run.lean ====
/-
  The run of the whole program. The adjacency matrix reaches the kernel through two windows, so its
  buffer is dealt between them, half of its share each; nothing writes it, and at the end both halves say
  it holds what it held. From the point-by-point account of the body, every weakly fair execution ends
  with each windowed array at what the write-backs leave and the bias vector untouched; the four
  arguments are read back unchanged.
-/
import proofs.«109797_g3770981286190_cont_8to1_b_7_8_alg».proof.Proof.Ideal.PointData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the six windows: five, the adjacency matrix serving two of them. -/
theorem arrRefs_eq : Finset.univ.image (Pipeline.arrRef spec0) = [main_arg1, main_arg2, main_arg0, main_v0, main_v1].toFinset := by decide

/-- Before any write-back an array holds its entry contents. -/
theorem arr_at0 (c : Dev nD) (w : Fin 6) : (dats m 0 c).arrAt w 0 = V m c (Pipeline.arrRef spec0 w) := A_eq m c w

/-- The shares: the two adjacency windows hold a half each, every other window its array whole. -/
theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl

/-- The buffers behind the arrays, each whole at the entry contents, are the windows' arrays at their shares:
    the adjacency matrix is split into its two halves, one per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : ∀ Φ : Ref sig .tc → sProp 𝕄, bigSep (Finset.univ.image (Pipeline.arrRef spec0)) Φ
      = iprop(Φ (Pipeline.arrRef spec0 0) ∗ Φ (Pipeline.arrRef spec0 1) ∗ Φ (Pipeline.arrRef spec0 2) ∗ Φ (Pipeline.arrRef spec0 4) ∗ Φ (Pipeline.arrRef spec0 5)) :=
    fun Φ => (bigSep_eq_bigSepL_of_eq _ arrRefs_eq (by decide) Φ).trans rfl
  unfold Pipeline.arrBufs Dat.arrays
  rw [bigSep_W0, e]
  simp only [arr_at0, share_0, share_1, share_2, share_3, share_4, share_5, View.set_whole]
  iintro ⟨H1, H2, H0, Hv0, Hv1⟩
  ihave H0 := (pointsTo_share (PosShare.mem_left_op_right fullShare)).1 $$ H0
  icases H0 with ⟨H0l, H0r⟩
  isplitl [H1]; · iexact H1
  isplitl [H2]; · iexact H2
  isplitl [H0l]; · iexact H0l
  isplitl [H0r]; · iexact H0r
  isplitl [Hv0]; · iexact Hv0
  iexact Hv1

/-- The scratch at anything is the invariant before the first point. -/
theorem hin (c : Dev nD) :
    iprop((iprop(emp) : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero, scopedRest0_eq]
  simp only [scM, owns_whole]
  iintro ⟨-, H⟩; iexact H

/-- After the last point the scratch is given back, its contents forgotten. -/
theorem hout (c : Dev nD) :
    (dats m 0 c).Φ (Fin.last cfg0.N) ⊢ iprop((iprop(emp) : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 25 := N_0; omega), scopedRest0_eq]
  simp only [scM, owns_whole]
  iintro H; isplitr; · iempintro
  iexists _; iexact H

/-- What the run ends with: each windowed array at what the proof data compute, every other unscoped buffer
    (the bias vector) at its entry contents. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = V m c b

set_option backward.isDefEq.respectTransparency.types false in
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (hin m) (hout m)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h => h)

/-- The four arguments end as launched: the three the kernel windows are inputs, never written; the bias vector
    bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c)⟩) (run_main m ρ)

end Cert.KernelIdeal.Hand

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«109797_g3770981286190_cont_8to1_b_7_8_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Spec.lean ====
/-
  The graph-convolution block as one function of its four arrays, at the ideal values (a float is an extended real):

      out(r, q) = max ( (sum over k < 10000 of adj(r, k) * (sum over j < 128 of feat(k, j) * W(j, q))) + b(q) ) z

  for r < 10000 and q < 128, where z is the value of the float zero word (it is never evaluated: the same word stands on
  both sides of every equation). The inner sum is the projected feature matrix feat · W; the outer sum multiplies it by
  the adjacency; the bias is added along the rows and the rectifier is the maximum with z. No program is mentioned here.
-/
import Idealize.ShloMosaic.PureOps.Ideal
import Idealize.ShloMosaic.Lib.ValueIdx

noncomputable section

open scoped BigOperators

namespace Cert.Spec

open Idealize.ShloMosaic Idealize.ShloMosaic.ValueIdx

/-- The value of the float zero word, kept as the word. -/
abbrev zeroLit : EReal := Ideal.ofBits .f32 0x00000000#32

/-- The projected features  feat · W  at row k and column q. -/
def proj (feat : (⟨2, ![10000, 128]⟩ : Shape).Idx → EReal) (W : (⟨2, ![128, 128]⟩ : Shape).Idx → EReal)
    (k : Fin 10000) (q : Fin 128) : EReal :=
  ∑ j : Fin 128, feat (ix2 k j) * W (ix2 j q)

/-- The block's result at row r and column q. -/
def entry (adj : (⟨2, ![10000, 10000]⟩ : Shape).Idx → EReal) (feat : (⟨2, ![10000, 128]⟩ : Shape).Idx → EReal)
    (W : (⟨2, ![128, 128]⟩ : Shape).Idx → EReal) (b : (⟨1, ![128]⟩ : Shape).Idx → EReal)
    (r : Fin 10000) (q : Fin 128) : EReal :=
  max ((∑ k : Fin 10000, adj (ix2 r k) * proj feat W k q) + b (ix1 q)) zeroLit

/-- The block's result as an array: entry by entry. -/
def gcn (adj : (⟨2, ![10000, 10000]⟩ : Shape).Idx → EReal) (feat : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => entry adj feat W b (i 0) (i 1)

/-- At an index given by its coordinates the array reads the entry. -/
theorem gcn_ix2 (adj : (⟨2, ![10000, 10000]⟩ : Shape).Idx → EReal) (feat : (⟨2, ![10000, 128]⟩ : Shape).Idx → EReal)
    (W : (⟨2, ![128, 128]⟩ : Shape).Idx → EReal) (b : (⟨1, ![128]⟩ : Shape).Idx → EReal) (r : Fin 10000) (q : Fin 128) :
    gcn adj feat W b (ix2 r q) = entry adj feat W b r q := rfl

end Cert.Spec

end
-- ==== Proof.Payload.lean ====
/-
  The kernel body's three stored values, read one entry at a time at the ideal values (a float is an extended real).

  The projected features: entry (p, q) of  x · w  is the sum over j < 128 of x(p, j) * w(j, q).
  A row block of the result: for a block a of 200 rows of the adjacency, the projected features y and the bias row bb,
  entry (p, q) is  max ((sum over k < 10000 of a(p, k) * y(k, q)) + bb(0, q)) z  with z the value of the zero word
  (the specification's zeroLit).
  Both row blocks of a grid step are computed by the same arithmetic, so the two statements differ in name only.

  Each product accumulates into the zero splat, so it is the bare contraction sum; the contraction index of the
  dimension numbers is re-indexed by the contracted coordinate (the six index facts of a plain product). The bias row is
  cast to its own shape (the identity) and broadcast along the rows, the sum and the maximum are entry by entry.
-/
import proofs.«109797_g3770981286190_cont_8to1_b_7_8_alg».proof.Proof.Gen.KernelIdeal.Skeleton
import proofs.«109797_g3770981286190_cont_8to1_b_7_8_alg».proof.Proof.LibPlainLists
import proofs.«109797_g3770981286190_cont_8to1_b_7_8_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.LibMatmulSum
open Cert.Spec (zeroLit)

/-- The dimension numbers of  [10000, 128] x [128, 128]  are those of a plain product with contraction length 128. -/
theorem plain_proj : Plain dot_S10000x128_S128x128_S10000x128_1_0_0_1_n_n :=
  Plain.of_lists _ rfl rfl rfl rfl rfl rfl

/-- The dimension numbers of  [200, 10000] x [10000, 128]  are those of a plain product with contraction length 10000. -/
theorem plain_block : Plain dot_S200x10000_S10000x128_S200x128_1_0_0_1_n_n :=
  Plain.of_lists _ rfl rfl rfl rfl rfl rfl

/-- The projected features at entry (p, q): the sum over j < 128 of x(p, j) * w(j, q). -/
theorem pay1_at (x : Vec Ideal S10000x128 .f32) (w : Vec Ideal S128x128 .f32) (p : Fin 10000) (q : Fin 128) :
    k0_pay1 (F := Ideal) x w (ix2 p q) = ∑ j : Fin 128, x (ix2 p j) * w (ix2 j q) := by
  unfold k0_pay1
  rw [shapeCast_self]
  exact matmul_zero_at plain_proj none x w p q

/-- A row block at entry (p, q): the block's row p against column q of y, plus the bias row at q, rectified. -/
theorem pay2_at (a : Vec Ideal S200x10000 .f32) (y : Vec Ideal S10000x128 .f32) (bb : Vec Ideal S1x128 .f32)
    (p : Fin 200) (q : Fin 128) :
    k0_pay2 (F := Ideal) a y bb (ix2 p q)
      = max ((∑ k : Fin 10000, a (ix2 p k) * y (ix2 k q)) + bb (ix2 (0 : Fin 1) q)) zeroLit := by
  unfold k0_pay2
  rw [maximumf_apply, addf_apply, broadcast_apply, shapeCast_self, broadcastTo_1b_ab_apply]
  refine congrArg (fun t => max (t + bb (ix2 (0 : Fin 1) q)) zeroLit) ?_
  exact matmul_zero_at plain_block none a y p q

/-- The second row block of a grid step: the same arithmetic. -/
theorem pay3_at (a : Vec Ideal S200x10000 .f32) (y : Vec Ideal S10000x128 .f32) (bb : Vec Ideal S1x128 .f32)
    (p : Fin 200) (q : Fin 128) :
    k0_pay3 (F := Ideal) a y bb (ix2 p q)
      = max ((∑ k : Fin 10000, a (ix2 p k) * y (ix2 k q)) + bb (ix2 (0 : Fin 1) q)) zeroLit := by
  unfold k0_pay3
  rw [maximumf_apply, addf_apply, broadcast_apply, shapeCast_self, broadcastTo_1b_ab_apply]
  refine congrArg (fun t => max (t + bb (ix2 (0 : Fin 1) q)) zeroLit) ?_
  exact matmul_zero_at plain_block none a y p q

end Cert.KernelIdeal.PayValue

end
-- ==== Proof.Block.lean ====
/-
  One row block of the kernel is the matching rows of the specification.

  Let a be 200 rows of the adjacency, row p of a being row r of the whole array, and let bb be the bias laid out as a
  single row. The kernel's stored value for the block, computed from a, from the projected features  feat · W  that the
  first grid step left in the scratch, and from bb, is at entry (p, q)

      max ((sum over k < 10000 of a(p, k) * (feat · W)(k, q)) + bb(0, q)) z,

  and with a(p, k) = adj(r, k), (feat · W)(k, q) = sum over j < 128 of feat(k, j) * W(j, q) and bb(0, q) = b(q) this is,
  term by term, the specification's entry (r, q). Nothing is rearranged: the two nested sums are the same sums.
  The statement comes once for a single row r, and once for a block that starts at row r0 (row p of the block is row
  r0 + p of the array); both row blocks of a grid step are covered.
-/
import proofs.«109797_g3770981286190_cont_8to1_b_7_8_alg».proof.Proof.Payload
import proofs.«109797_g3770981286190_cont_8to1_b_7_8_alg».proof.Proof.Spec

noncomputable section

namespace Cert.KernelIdeal.PayValue

open Cert.KernelIdeal Cert.KernelIdeal.Gen Idealize.ShloMosaic Idealize.ShloMosaic.ValueIdx
open Cert.Spec (zeroLit gcn gcn_ix2 entry proj)

/-- The arithmetic of a row block, on the block's row p standing for the array's row r. -/
theorem row_eq (adj : Vec Ideal S10000x10000 .f32) (feat : Vec Ideal S10000x128 .f32) (W : Vec Ideal S128x128 .f32)
    (b : Vec Ideal S128 .f32) (a : Vec Ideal S200x10000 .f32) (bb : Vec Ideal S1x128 .f32)
    (p : Fin 200) (q : Fin 128) (r : Fin 10000)
    (ha : ∀ k : Fin 10000, a (ix2 p k) = adj (ix2 r k)) (hb : bb (ix2 (0 : Fin 1) q) = b (ix1 q)) :
    max ((∑ k : Fin 10000, a (ix2 p k) * k0_pay1 (F := Ideal) feat W (ix2 k q)) + bb (ix2 (0 : Fin 1) q)) zeroLit
      = gcn adj feat W b (ix2 r q) := by
  rw [gcn_ix2, hb]
  unfold entry proj
  refine congrArg (fun t => max (t + b (ix1 q)) zeroLit) ?_
  refine Finset.sum_congr rfl fun k _ => ?_
  rw [ha k, pay1_at]

/-- The first row block of a grid step, one row at a time. -/
theorem pay2_row (adj : Vec Ideal S10000x10000 .f32) (feat : Vec Ideal S10000x128 .f32) (W : Vec Ideal S128x128 .f32)
    (b : Vec Ideal S128 .f32) (a : Vec Ideal S200x10000 .f32) (bb : Vec Ideal S1x128 .f32)
    (p : Fin 200) (q : Fin 128) (r : Fin 10000)
    (ha : ∀ k : Fin 10000, a (ix2 p k) = adj (ix2 r k)) (hb : bb (ix2 (0 : Fin 1) q) = b (ix1 q)) :
    k0_pay2 (F := Ideal) a (k0_pay1 (F := Ideal) feat W) bb (ix2 p q) = gcn adj feat W b (ix2 r q) :=
  (pay2_at a _ bb p q).trans (row_eq adj feat W b a bb p q r ha hb)

/-- The second row block of a grid step, one row at a time. -/
theorem pay3_row (adj : Vec Ideal S10000x10000 .f32) (feat : Vec Ideal S10000x128 .f32) (W : Vec Ideal S128x128 .f32)
    (b : Vec Ideal S128 .f32) (a : Vec Ideal S200x10000 .f32) (bb : Vec Ideal S1x128 .f32)
    (p : Fin 200) (q : Fin 128) (r : Fin 10000)
    (ha : ∀ k : Fin 10000, a (ix2 p k) = adj (ix2 r k)) (hb : bb (ix2 (0 : Fin 1) q) = b (ix1 q)) :
    k0_pay3 (F := Ideal) a (k0_pay1 (F := Ideal) feat W) bb (ix2 p q) = gcn adj feat W b (ix2 r q) :=
  (pay3_at a _ bb p q).trans (row_eq adj feat W b a bb p q r ha hb)

/-- The first row block, for a block that starts at row r0 of the array. -/
theorem pay2_block (adj : Vec Ideal S10000x10000 .f32) (feat : Vec Ideal S10000x128 .f32) (W : Vec Ideal S128x128 .f32)
    (b : Vec Ideal S128 .f32) (r0 : ℕ) (hr0 : r0 + 200 ≤ 10000) (a : Vec Ideal S200x10000 .f32) (bb : Vec Ideal S1x128 .f32)
    (ha : ∀ (p : Fin 200) (k : Fin 10000), a (ix2 p k) = adj (ix2 (⟨r0 + p.val, by omega⟩ : Fin 10000) k))
    (hb : ∀ q : Fin 128, bb (ix2 (0 : Fin 1) q) = b (ix1 q)) (p : Fin 200) (q : Fin 128) :
    k0_pay2 (F := Ideal) a (k0_pay1 (F := Ideal) feat W) bb (ix2 p q)
      = gcn adj feat W b (ix2 (⟨r0 + p.val, by omega⟩ : Fin 10000) q) :=
  pay2_row adj feat W b a bb p q _ (ha p) (hb q)

/-- The second row block, for a block that starts at row r0 of the array. -/
theorem pay3_block (adj : Vec Ideal S10000x10000 .f32) (feat : Vec Ideal S10000x128 .f32) (W : Vec Ideal S128x128 .f32)
    (b : Vec Ideal S128 .f32) (r0 : ℕ) (hr0 : r0 + 200 ≤ 10000) (a : Vec Ideal S200x10000 .f32) (bb : Vec Ideal S1x128 .f32)
    (ha : ∀ (p : Fin 200) (k : Fin 10000), a (ix2 p k) = adj (ix2 (⟨r0 + p.val, by omega⟩ : Fin 10000) k))
    (hb : ∀ q : Fin 128, bb (ix2 (0 : Fin 1) q) = b (ix1 q)) (p : Fin 200) (q : Fin 128) :
    k0_pay3 (F := Ideal) a (k0_pay1 (F := Ideal) feat W) bb (ix2 p q)
      = gcn adj feat W b (ix2 (⟨r0 + p.val, by omega⟩ : Fin 10000) q) :=
  pay3_row adj feat W b a bb p q _ (ha p) (hb q)

end Cert.KernelIdeal.PayValue

end
-- ==== Proof.Ideal.Value.lean ====
/-
  From the kernel's blocks to the whole result array, at the ideal values.

  The grid has 25 points. At point t the pipeline hands the body rows 400t .. 400t+199 of the adjacency as one block and
  rows 400t+200 .. 400t+399 as another, the whole feature matrix, the whole weight matrix and the bias row; the body
  leaves a 400-row block whose rows 0..199 come from the first adjacency block and rows 200..399 from the second, and
  the pipeline writes that block back as rows 400t .. 400t+399 of the result. Row r of the result therefore comes from
  point r / 400, and by the block lemma it is row r of the specification. Every row lies in some point's block, so the
  array ends holding the specification.
-/
import proofs.«109797_g3770981286190_cont_8to1_b_7_8_alg».proof.Proof.Ideal.PointData
import proofs.«109797_g3770981286190_cont_8to1_b_7_8_alg».proof.Proof.Block
import Idealize.ShloMosaic.Lib.Pipeline.Value
import Idealize.ShloMosaic.Lib.ValueLayout

noncomputable section

namespace Cert.KernelIdeal.HandValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)
open Cert.Spec (gcn)

/-! ## The body's 400-row block, row by row -/

section AnyValues
variable {F : FTy → Type} [FloatOps F]

/-- Rows 200..399 of the block the body leaves are the second adjacency block's result. -/
theorem outBlock_hi (x2 x3 : Vec F S200x10000 .f32) (x4 : Vec F S1x128 .f32) (xs : Vec F S10000x128 .f32)
    (p : Fin 200) (q : Fin 128) (r : Fin 400) (hr : r.val = 200 + p.val) :
    outBlock x2 x3 x4 xs (ix2 r q) = k0_pay3 x3 xs x4 (ix2 p q) := by
  unfold outBlock
  have e : ix2 r q = (Rect.unit (s := S400x128) ![200, 0] S200x128.size Facts₀.inb_S400x128_S200x128_200_0).emb (ix2 p q) := by
    funext a; apply Fin.ext
    match a with
    | ⟨0, _⟩ => show r.val = 200 + 1 * p.val; omega
    | ⟨1, _⟩ => show q.val = 0 + 1 * q.val; omega
  rw [e, View.canon_cons_emb]

/-- Rows 0..199 are the first adjacency block's result: the later store does not reach them. -/
theorem outBlock_lo (x2 x3 : Vec F S200x10000 .f32) (x4 : Vec F S1x128 .f32) (xs : Vec F S10000x128 .f32)
    (p : Fin 200) (q : Fin 128) (r : Fin 400) (hr : r.val = p.val) :
    outBlock x2 x3 x4 xs (ix2 r q) = k0_pay2 x2 xs x4 (ix2 p q) := by
  unfold outBlock
  rw [View.canon_cons_of_not_mem _ _ (by
    rw [Rect.mem_set_unit]
    intro h
    have h0 : 200 ≤ r.val := (h 0).1
    have := p.isLt
    omega)]
  have e : ix2 r q = (Rect.unit (s := S400x128) ![0, 0] S200x128.size Facts₀.inb_S400x128_S200x128_0_0).emb (ix2 p q) := by
    funext a; apply Fin.ext
    match a with
    | ⟨0, _⟩ => show r.val = 0 + 1 * p.val; omega
    | ⟨1, _⟩ => show q.val = 0 + 1 * q.val; omega
  rw [e, View.canon_cons_emb]

end AnyValues

/-! ## Where each window's block sits at a grid point -/

/-- The block indices at point t, decided over the 25 points: the two adjacency windows are at blocks 2t and 2t+1 of
    200 rows, the result window at block t of 400 rows, and the three whole-array windows at block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable {F : FTy → Type} [FloatOps F]
variable (m : (ℓ : Loc nD τ sig) → Buf (Elt F) ℓ)

/-- The feature window's block is the whole feature matrix. -/
theorem iblk0_at (c : Dev nD) (t : Fin cfg0.N) (k : Fin 10000) (j : Fin 128) :
    (iblk m c 0 t : Vec F S10000x128 .f32) (ix2 k j) = (V m c main_arg1 : S10000x128.Idx → Elt F .f32) (ix2 k j) := by
  obtain ⟨e00, e01, -⟩ := idx_facts t
  unfold iblk
  rw [View.read_apply]
  show V m c main_arg1 _ = V m c main_arg1 _
  refine congrArg (V m c main_arg1) (funext fun a => Fin.ext ?_)
  match a with
  | ⟨0, _⟩ => show win0_0.index t (0 : Fin 2) * 10000 + 1 * k.val = k.val; rw [e00]; omega
  | ⟨1, _⟩ => show win0_0.index t (1 : Fin 2) * 128 + 1 * j.val = j.val; rw [e01]; omega

/-- The weight window's block is the whole weight matrix. -/
theorem iblk1_at (c : Dev nD) (t : Fin cfg0.N) (j : Fin 128) (q : Fin 128) :
    (iblk m c 1 t : Vec F S128x128 .f32) (ix2 j q) = (V m c main_arg2 : S128x128.Idx → Elt F .f32) (ix2 j q) := by
  obtain ⟨-, -, e10, e11, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 2) * 128 + 1 * j.val = j.val; rw [e10]; omega
  | ⟨1, _⟩ => show win0_1.index t (1 : Fin 2) * 128 + 1 * q.val = q.val; rw [e11]; omega

/-- The first adjacency window's block at point t: its row p is row 400t + p of the adjacency. -/
theorem iblk2_at (c : Dev nD) (t : Fin cfg0.N) (p : Fin 200) (k : Fin 10000) (r : Fin 10000) (hr : r.val = 400 * t.val + p.val) :
    (iblk m c 2 t : Vec F S200x10000 .f32) (ix2 p k) = (V m c main_arg0 : S10000x10000.Idx → Elt F .f32) (ix2 r k) := by
  obtain ⟨-, -, -, -, e20, e21, -⟩ := idx_facts t
  unfold iblk
  rw [View.read_apply]
  show V m c main_arg0 _ = V m c main_arg0 _
  refine congrArg (V m c main_arg0) (funext fun a => Fin.ext ?_)
  match a with
  | ⟨0, _⟩ => show win0_2.index t (0 : Fin 2) * 200 + 1 * p.val = r.val; rw [e20, hr]; omega
  | ⟨1, _⟩ => show win0_2.index t (1 : Fin 2) * 10000 + 1 * k.val = k.val; rw [e21]; omega

/-- The second adjacency window's block at point t: its row p is row 400t + 200 + p of the adjacency. -/
theorem iblk3_at (c : Dev nD) (t : Fin cfg0.N) (p : Fin 200) (k : Fin 10000) (r : Fin 10000) (hr : r.val = 400 * t.val + 200 + p.val) :
    (iblk m c 3 t : Vec F S200x10000 .f32) (ix2 p k) = (V m c main_arg0 : S10000x10000.Idx → Elt F .f32) (ix2 r k) := by
  obtain ⟨-, -, -, -, -, -, e30, e31, -⟩ := idx_facts t
  unfold iblk
  rw [View.read_apply]
  show V m c main_arg0 _ = V m c main_arg0 _
  refine congrArg (V m c main_arg0) (funext fun a => Fin.ext ?_)
  match a with
  | ⟨0, _⟩ => show win0_3.index t (0 : Fin 2) * 200 + 1 * p.val = r.val; rw [e30, hr]; omega
  | ⟨1, _⟩ => show win0_3.index t (1 : Fin 2) * 10000 + 1 * k.val = k.val; rw [e31]; omega

/-- The bias window's block is the bias vector laid out as a row. -/
theorem iblk4_at (c : Dev nD) (t : Fin cfg0.N) (q : Fin 128) :
    (iblk m c 4 t : Vec F S1x128 .f32) (ix2 (0 : Fin 1) q) = (m ((c : Thread nD τ).loc main_arg3) : S128.Idx → F .f32) (ix1 q) := by
  obtain ⟨-, -, -, -, -, -, -, -, e40, e41, -⟩ := idx_facts t
  unfold iblk
  rw [View.read_apply]
  show (V m c main_v0 : S1x128.Idx → F .f32) _ = _
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e40]
    | ⟨1, _⟩ => show win0_4.index t (1 : Fin 2) * 128 + 1 * q.val = q.val; rw [e41]; omega)
  rw [e, V_main_v0, shapeCast_a_1a_apply]

end Blocks

/-! ## A grid point's block is its rows of the specification -/

section AtIdeal
variable (m : (ℓ : Loc nD τ sig) → Buf (Elt Ideal) ℓ)

/-- The specification of the launch's four arrays on core c. -/
abbrev G (c : Dev nD) : S10000x128.Idx → EReal :=
  gcn (V m c main_arg0) (V m c main_arg1) (V m c main_arg2) (m ((c : Thread nD τ).loc main_arg3))

/-- The projected features kept in the scratch are computed from the whole feature and weight matrices. -/
theorem xw_eq (c : Dev nD) : xw m c = k0_pay1 (F := Ideal) (V m c main_arg1) (V m c main_arg2) := by
  unfold xw
  have e0 : (iblk m c 0 t0 : Vec Ideal S10000x128 .f32) = V m c main_arg1 := funext fun i => by
    obtain ⟨k, j, rfl⟩ : ∃ (k : Fin 10000) (j : Fin 128), i = ix2 k j := ⟨i 0, i 1, eq_ix2 i⟩
    exact iblk0_at m c t0 k j
  have e1 : (iblk m c 1 t0 : Vec Ideal S128x128 .f32) = V m c main_arg2 := funext fun i => by
    obtain ⟨j, q, rfl⟩ : ∃ (j : Fin 128) (q : Fin 128), i = ix2 j q := ⟨i 0, i 1, eq_ix2 i⟩
    exact iblk1_at m c t0 j q
  rw [e0, e1]

/-- Row r of the block point t leaves is row 400t + r of the specification. -/
theorem point_entry (c : Dev nD) (t : Fin cfg0.N) (r : Fin 400) (q : Fin 128) (R : Fin 10000) (hR : R.val = 400 * t.val + r.val) :
    outBlock (iblk m c 2 t) (iblk m c 3 t) (iblk m c 4 t) (xw m c) (ix2 r q) = G m c (ix2 R q) := by
  rw [xw_eq]
  by_cases hlt : r.val < 200
  · rw [outBlock_lo (iblk m c 2 t) (iblk m c 3 t) (iblk m c 4 t) _ ⟨r.val, hlt⟩ q r rfl]
    exact pay2_row (V m c main_arg0) (V m c main_arg1) (V m c main_arg2) (m ((c : Thread nD τ).loc main_arg3))
      (iblk m c 2 t) (iblk m c 4 t) ⟨r.val, hlt⟩ q R
      (fun k => iblk2_at m c t ⟨r.val, hlt⟩ k R hR) (iblk4_at m c t q)
  · have hp : r.val - 200 < 200 := by have := r.isLt; omega
    rw [outBlock_hi (iblk m c 2 t) (iblk m c 3 t) (iblk m c 4 t) _ ⟨r.val - 200, hp⟩ q r (by show r.val = 200 + (r.val - 200); omega)]
    exact pay3_row (V m c main_arg0) (V m c main_arg1) (V m c main_arg2) (m ((c : Thread nD τ).loc main_arg3))
      (iblk m c 3 t) (iblk m c 4 t) ⟨r.val - 200, hp⟩ q R
      (fun k => iblk3_at m c t ⟨r.val - 200, hp⟩ k R (by show R.val = 400 * t.val + 200 + (r.val - 200); omega)) (iblk4_at m c t q)

/-- What point t writes back is its block of the specification. -/
theorem flushed5_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after_5]
  obtain ⟨-, -, -, -, -, -, -, -, -, -, e50, e51⟩ := idx_facts t
  funext y
  have hy0 : (y 0).val < 400 := (y 0).isLt
  have hy1 : (y 1).val < 128 := (y 1).isLt
  have ht : t.val < 25 := Nat.lt_of_lt_of_eq t.isLt (show cfg0.N = 25 from N_0)
  have ein : (cfg0.win 5).xinj (grid0.coords t) y = ix2 (⟨(y 0).val, hy0⟩ : Fin 400) (⟨(y 1).val, hy1⟩ : Fin 128) :=
    funext fun a => Fin.ext (by match a with | ⟨0, _⟩ => rfl | ⟨1, _⟩ => rfl)
  have eout : ((cfg0.win 5).blk t).view.emb y = ix2 (⟨400 * t.val + (y 0).val, by omega⟩ : Fin 10000) (⟨(y 1).val, hy1⟩ : Fin 128) :=
    funext fun a => Fin.ext (by
      match a with
      | ⟨0, _⟩ => show win0_5.index t (0 : Fin 2) * 400 + 1 * (y 0).val = 400 * t.val + (y 0).val; rw [e50]; omega
      | ⟨1, _⟩ => show win0_5.index t (1 : Fin 2) * 128 + 1 * (y 1).val = (y 1).val; rw [e51]; omega)
  show outBlock (iblk m c 2 t) (iblk m c 3 t) (iblk m c 4 t) (xw m c) ((cfg0.win 5).xinj (grid0.coords t) y)
    = G m c (((cfg0.win 5).blk t).view.emb y)
  rw [ein, eout]
  exact point_entry m c t _ _ _ rfl

/-- An index of the result array is in point t's block iff its row is among the block's 400 rows. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- Every one of the 25 row blocks is some point's. -/
theorem idx_onto5 : ∀ q0 : Fin 25, ∃ t : Fin cfg0.N, win0_5.index t = ![q0.val, 0] :=
  (by decide +kernel : ∀ q0 : Fin 25, ∃ t : Fin grid0.N, win0_5.index t = ![q0.val, 0])

/-- Every index of the result array lies in the block of the point its row belongs to. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto5 ⟨(i 0).val / 400, by omega⟩
  have q0 : win0_5.index t (0 : Fin 2) = (i 0).val / 400 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The result array after the run is the specification of the launch's arrays. -/
theorem final5 (c : Dev nD) : (dats m 0 c).arrAt 5 cfg0.N = G m c :=
  (dats m 0 c).arrAt_eq_of_cover 5 (G m c) (fun t _ => flushed5_eq m c t) cover5

/-- The same with the four arrays read as launched: the host's one step before the region writes none of them. -/
theorem final5_launch (c : Dev nD) :
    (dats m 0 c).arrAt 5 cfg0.N
      = gcn (m ((c : Thread nD τ).loc main_arg0)) (m ((c : Thread nD τ).loc main_arg1)) (m ((c : Thread nD τ).loc main_arg2))
          (m ((c : Thread nD τ).loc main_arg3)) := by
  rw [final5]
  show gcn (V m c main_arg0) (V m c main_arg1) (V m c main_arg2) (m ((c : Thread nD τ).loc main_arg3)) = _
  rw [V_main_arg0, V_main_arg1, V_main_arg2]

end AtIdeal

end Cert.KernelIdeal.HandValue

end
-- ==== Proof.RefValue.lean ====
/-
  The reference program's result is the specification.

  The reference multiplies feat by W, multiplies the adjacency by the product, adds the bias (laid out as a row and
  repeated down the rows) and takes the maximum with a zero array. Read at entry (r, q), each matrix product is the sum
  over its contracted coordinate, the two layout steps of the bias read b(q), and the zero array reads the value of the
  zero word: the nested sum of the specification, term by term.
-/
import proofs.«109797_g3770981286190_cont_8to1_b_7_8_alg».proof.Proof.Gen.ReferenceIdeal.Read
import proofs.«109797_g3770981286190_cont_8to1_b_7_8_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec (zeroLit gcn gcn_ix2 entry proj)

/-- The operand entries the outer product reads at result entry (r, q) and contraction position k. -/
theorem outer_l (r : Fin 10000) (q : Fin 128) (k : Fin 10000) : lidx_main_v1 (ix2 r q) k = ix2 r k :=
  funext fun a => by match a with | ⟨0, _⟩ => rfl | ⟨1, _⟩ => rfl
theorem outer_r (r : Fin 10000) (q : Fin 128) (k : Fin 10000) : ridx_main_v1 (ix2 r q) k = ix2 k q :=
  funext fun a => by match a with | ⟨0, _⟩ => rfl | ⟨1, _⟩ => rfl
/-- The operand entries the inner product reads at result entry (k, q) and contraction position j. -/
theorem inner_l (k : Fin 10000) (q : Fin 128) (j : Fin 128) : lidx_main_v0 (ix2 k q) j = ix2 k j :=
  funext fun a => by match a with | ⟨0, _⟩ => rfl | ⟨1, _⟩ => rfl
theorem inner_r (k : Fin 10000) (q : Fin 128) (j : Fin 128) : ridx_main_v0 (ix2 k q) j = ix2 j q :=
  funext fun a => by match a with | ⟨0, _⟩ => rfl | ⟨1, _⟩ => rfl
/-- The bias entry read at result entry (r, q). -/
theorem bias_idx (r : Fin 10000) (q : Fin 128) : idx_main_v2 (idx_main_v3 (ix2 r q)) = ix1 q :=
  funext fun a => by match a with | ⟨0, _⟩ => rfl

/-- The reference's result, entry by entry, is the specification's. -/
theorem ref_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = gcn x0 x1 x2 x3 := by
  funext i
  obtain ⟨r, q, rfl⟩ : ∃ (r : Fin 10000) (q : Fin 128), i = ix2 r q := ⟨i 0, i 1, eq_ix2 i⟩
  rw [val_main_v5_apply, val_main_v4_apply, val_main_v1_apply, val_main_v3_apply, val_main_v2_apply,
    val_main_call0_v0_apply, val_main_call0_cst_apply, gcn_ix2]
  unfold entry proj
  simp only [outer_l, outer_r, val_main_v0_apply, inner_l, inner_r, bias_idx]
  rfl

end Cert.ReferenceIdeal.RefValue

end
-- ==== Proof.Claims.lean ====
/-
  The two claims that speak of values.

  The reference program, run at the ideal values, ends with its four arguments unchanged. And the kernel program and the
  reference, run at the ideal values from memories that agree on the four arguments, end with the same result array:
  both hold the specification of those arguments, entry (r, q) being
  max ((sum over k < 10000 of adj(r, k) * (sum over j < 128 of feat(k, j) * W(j, q))) + b(q)) z  with z the value of the
  zero word. On the kernel's side the result array is what the 25 write-backs leave, which is the specification row
  block by row block; on the reference's side the composed term of its operations is the specification entry by entry.
-/
import proofs.«109797_g3770981286190_cont_8to1_b_7_8_alg».proof.Defs
import proofs.«109797_g3770981286190_cont_8to1_b_7_8_alg».proof.Proof.Gen.Pre_finite_inputs
import proofs.«109797_g3770981286190_cont_8to1_b_7_8_alg».proof.Proof.Ideal.Run
import proofs.«109797_g3770981286190_cont_8to1_b_7_8_alg».proof.Proof.Ideal.Value
import proofs.«109797_g3770981286190_cont_8to1_b_7_8_alg».proof.Proof.RefValue

noncomputable section

open Idealize.ShloMosaic Idealize.ShloMosaic.TcCoe Idealize.SL.Sem

namespace Cert.Proof.Claims

open Cert.Spec (gcn)

/-! ## The kernel program's run, with the result array named -/

section KernelRun

open Cert.KernelIdeal Cert.KernelIdeal.Gen Cert.KernelIdeal.Hand

/-- Every execution of the kernel program at the ideal values ends with the result array at the specification of the
    four arguments as launched, and the four arguments unchanged: the result is what the write-backs leave, the three
    windowed arguments are inputs that nothing writes, and the bias vector is not touched by the region. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = gcn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (Cert.KernelIdeal.HandValue.final5_launch m c),
     ((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c)⟩) (run_main m ρ)

end KernelRun

/-! ## The claims -/

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array and the reference's are one array: the specification of the arguments. -/
theorem algebraic : Cert.algebraic_KernelIdeal_ReferenceIdeal := by
  intro m ρ m' ρ' _ hagree
  refine ⟨fun c => gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

end Cert.Proof.Claims

end
-- ==== Proof.lean ====
/-
  A graph-convolution block, relu(adj · (feature · W) + b) over a dense 10000 x 10000 adjacency matrix, as
  one fused kernel on a grid of 25 points against the plain array expression.

  The kernel reads the adjacency matrix through two windows, 200 rows each, the second 200 rows behind
  the first, so that a grid point covers 400 rows. At the first point it multiplies the feature matrix by
  the weights and keeps the product in a scratch buffer; at every point it multiplies its two blocks of
  adjacency rows by the kept product, adds the bias row, takes the maximum with zero, and writes the two
  results back as one 400-row block of the result.

  Frames. The two windows share the adjacency matrix's buffer, so its share is dealt between them, a half
  each; no window writes it, and the run gives it back as it was. The body is run symbolically in its two
  cases (the first point, the others); the invariant carried between points is the scratch at the product
  of the feature matrix and the weights. The same account is given of the word-level program and of its
  idealization. The reference is a straight line of host operations, and its frame is its run with the
  result dropped.

  Values. Over the extended reals entry (r, q) of both results is
      max ((sum over k < 10000 of adj(r,k) * (sum over j < 128 of feature(k,j) * W(j,q))) + b(q), 0):
  the kernel's blocks tile the rows (row r lies in the block of point r / 400), the matrix unit's product into
  a zero accumulator and the host's contraction are the same sum, and both sides associate the two products
  the same way, so no law of arithmetic is needed and the inputs' finiteness is not used.

  The idealization rewrote nothing, so that claim is trivial.
-/
import proofs.«109797_g3770981286190_cont_8to1_b_7_8_alg».proof.Defs
import proofs.«109797_g3770981286190_cont_8to1_b_7_8_alg».proof.Proof.Bits.Run
import proofs.«109797_g3770981286190_cont_8to1_b_7_8_alg».proof.Proof.Ideal.Run
import proofs.«109797_g3770981286190_cont_8to1_b_7_8_alg».proof.Proof.Claims
import proofs.«109797_g3770981286190_cont_8to1_b_7_8_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.Claims.frame_ri,
  trivial,
  Cert.Proof.Claims.algebraic⟩

end Cert.Proof

end
